-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x1 : Shape := ⟨3, ![16, 2048, 1]⟩
abbrev S16x2048x64 : Shape := ⟨3, ![16, 2048, 64]⟩
abbrev S1x2048x1 : Shape := ⟨3, ![1, 2048, 1]⟩
abbrev S_ : Shape := ⟨0, ![]⟩

class Facts : Prop where
  bcast_S_S16x2048x1 : S_.BroadcastsInDim S16x2048x1 (![] : Fin 0 → Fin S16x2048x1.rank)
  reducesTo_S16x2048x1_S_d0_1_2 : S16x2048x1.ReducesTo [0, 1, 2] S_
  h_S_ : 0 < S_.numel
  bcast_S_S16x2048x64 : S_.BroadcastsInDim S16x2048x64 (![] : Fin 0 → Fin S16x2048x64.rank)
  reducesTo_S16x2048x64_S_d0_1_2 : S16x2048x64.ReducesTo [0, 1, 2] S_
  bcast_S_S1x2048x1 : S_.BroadcastsInDim S1x2048x1 (![] : Fin 0 → Fin S1x2048x1.rank)
  reducesTo_S1x2048x1_S_d0_1_2 : S1x2048x1.ReducesTo [0, 1, 2] S_

variable [Facts]

def fn {F : FTy → Type} [FloatOps F] (main_arg0 : FVec F S16x2048x1 .f32) (main_arg1 : FVec F S16x2048x64 .f32) (main_arg2 : FVec F S1x2048x1 .f32) : IVec S_ 1 :=
  let main_v0 : FVec F S16x2048x1 .f32 := Host.absf main_arg0
  let main_cst : FVec F S_ .f32 := constant S_ .f32 0x7F800000#32
  let main_v1 : FVec F S16x2048x1 .f32 := broadcastInDim S16x2048x1 ![] bcast_S_S16x2048x1 main_cst
  let main_v2 : IVec S16x2048x1 1 := cmpf .olt main_v0 main_v1
  let main_c : IVec S_ 1 := constantI S_ 1 1#1
  let main_v3 : IVec S_ 1 := (fun x v => Host.reduce IntOp.andi x v reducesTo_S16x2048x1_S_d0_1_2 h_S_) main_v2 main_c
  let main_v4 : FVec F S16x2048x64 .f32 := Host.absf main_arg1
  let main_cst_0 : FVec F S_ .f32 := constant S_ .f32 0x7F800000#32
  let main_v5 : FVec F S16x2048x64 .f32 := broadcastInDim S16x2048x64 ![] bcast_S_S16x2048x64 main_cst_0
  let main_v6 : IVec S16x2048x64 1 := cmpf .olt main_v4 main_v5
  let main_c_1 : IVec S_ 1 := constantI S_ 1 1#1
  let main_v7 : IVec S_ 1 := (fun x v => Host.reduce IntOp.andi x v reducesTo_S16x2048x64_S_d0_1_2 h_S_) main_v6 main_c_1
  let main_v8 : IVec S_ 1 := andi main_v3 main_v7
  let main_v9 : FVec F S1x2048x1 .f32 := Host.absf main_arg2
  let main_cst_2 : FVec F S_ .f32 := constant S_ .f32 0x7F800000#32
  let main_v10 : FVec F S1x2048x1 .f32 := broadcastInDim S1x2048x1 ![] bcast_S_S1x2048x1 main_cst_2
  let main_v11 : IVec S1x2048x1 1 := cmpf .olt main_v9 main_v10
  let main_c_3 : IVec S_ 1 := constantI S_ 1 1#1
  let main_v12 : IVec S_ 1 := (fun x v => Host.reduce IntOp.andi x v reducesTo_S1x2048x1_S_d0_1_2 h_S_) main_v11 main_c_3
  let main_v13 : IVec S_ 1 := andi main_v8 main_v12
  main_v13
-- ==== Kernel.lean ====
abbrev S16x2048x1 : Shape := ⟨3, ![16, 2048, 1]⟩
abbrev S16x2048x64 : Shape := ⟨3, ![16, 2048, 64]⟩
abbrev S1x2048x1 : Shape := ⟨3, ![1, 2048, 1]⟩
abbrev S1x1x2048 : Shape := ⟨3, ![1, 1, 2048]⟩
abbrev S16x2048x2048 : Shape := ⟨3, ![16, 2048, 2048]⟩
abbrev S1x512x1 : Shape := ⟨3, ![1, 512, 1]⟩
abbrev S1x2048x64 : Shape := ⟨3, ![1, 2048, 64]⟩
abbrev S1x512x64 : Shape := ⟨3, ![1, 512, 64]⟩
abbrev S1x512x2048 : Shape := ⟨3, ![1, 512, 2048]⟩
abbrev S512x1 : Shape := ⟨2, ![512, 1]⟩
abbrev S1x2048 : Shape := ⟨2, ![1, 2048]⟩
abbrev S512x2048 : Shape := ⟨2, ![512, 2048]⟩
abbrev S512 : Shape := ⟨1, ![512]⟩
abbrev S2048x64 : Shape := ⟨2, ![2048, 64]⟩
abbrev S512x64 : Shape := ⟨2, ![512, 64]⟩

abbrev nBuf : Space → Nat
  | .hbm => 7
  | .vmem => 9
  | .smem => 0
  | _ => 0

abbrev bufTy : (tb : Table) → Fin (tcTables nBuf tb) → BufTy
  | .hbm, ⟨0, _⟩ => ⟨S16x2048x1, .f32⟩
  | .hbm, ⟨1, _⟩ => ⟨S16x2048x64, .f32⟩
  | .hbm, ⟨2, _⟩ => ⟨S1x2048x1, .f32⟩
  | .hbm, ⟨3, _⟩ => ⟨S1x1x2048, .f32⟩
  | .hbm, ⟨4, _⟩ => ⟨S16x2048x64, .bf16⟩
  | .hbm, ⟨5, _⟩ => ⟨S16x2048x64, .f32⟩
  | .hbm, ⟨6, _⟩ => ⟨S16x2048x2048, .f32⟩
  | .local _ .vmem, ⟨0, _⟩ => ⟨S1x512x1, .f32⟩
  | .local _ .vmem, ⟨1, _⟩ => ⟨S1x512x1, .f32⟩
  | .local _ .vmem, ⟨2, _⟩ => ⟨S1x1x2048, .f32⟩
  | .local _ .vmem, ⟨3, _⟩ => ⟨S1x2048x64, .bf16⟩
  | .local _ .vmem, ⟨4, _⟩ => ⟨S1x2048x64, .bf16⟩
  | .local _ .vmem, ⟨5, _⟩ => ⟨S1x512x64, .f32⟩
  | .local _ .vmem, ⟨6, _⟩ => ⟨S1x512x64, .f32⟩
  | .local _ .vmem, ⟨7, _⟩ => ⟨S1x512x2048, .f32⟩
  | .local _ .vmem, ⟨8, _⟩ => ⟨S1x512x2048, .f32⟩
  | _, _ => ⟨S16x2048x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  transposes_S1x2048x1_S1x1x2048_0_2_1 : S1x2048x1.Transposes [0, 2, 1] S1x1x2048
  bitsLt_bf16_f32 : FTy.bits .bf16 < FTy.bits .f32
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  broadcasts_S512x1_S512x2048 : S512x1.Broadcasts S512x2048
  broadcasts_S1x2048_S512x2048 : S1x2048.Broadcasts S512x2048
  reduces_S512x2048_S512 : S512x2048.Reduces [1] S512
  shapeCasts_S512_S512x1 : S512.ShapeCasts S512x1
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  shapeCasts_S512x64_S1x512x64 : S512x64.ShapeCasts S1x512x64
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1.size a ≤ S16x2048x1.size a
  hwx0_0 : ∀ i : grid0.Coords, EltTy.bits .f32 = 32 ∨ (Rect.block (s := S16x2048x1) S1x512x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1x2048.size a ≤ S1x1x2048.size a
  hwx0_1 : ∀ i : grid0.Coords, EltTy.bits .f32 = 32 ∨ (Rect.block (s := S1x1x2048) S1x1x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S16x2048x64.size a
  hwx0_2 : ∀ i : grid0.Coords, EltTy.bits .bf16 = 32 ∨ (Rect.block (s := S16x2048x64) S1x2048x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x64.size a ≤ S16x2048x64.size a
  hwx0_3 : ∀ i : grid0.Coords, EltTy.bits .f32 = 32 ∨ (Rect.block (s := S16x2048x64) S1x512x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x2048.size a ≤ S16x2048x2048.size a
  hwx0_4 : ∀ i : grid0.Coords, EltTy.bits .f32 = 32 ∨ (Rect.block (s := S16x2048x2048) S1x512x2048.size (cc0_transform_4 i) (hinb0_4 i)).WholeWords (EltTy.packing .f32)

variable [Facts₀]

def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S1x512x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S1x512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x2048x1 : Shape := ⟨3, ![16, 2048, 1]⟩
abbrev S16x2048x64 : Shape := ⟨3, ![16, 2048, 64]⟩
abbrev S1x2048x1 : Shape := ⟨3, ![1, 2048, 1]⟩
abbrev S1x1x2048 : Shape := ⟨3, ![1, 1, 2048]⟩
abbrev S16x2048x2048 : Shape := ⟨3, ![16, 2048, 2048]⟩
abbrev S_ : Shape := ⟨0, ![]⟩
abbrev S16x2048 : Shape := ⟨2, ![16, 2048]⟩

abbrev nBuf : Space → Nat
  | .hbm => 29
  | .vmem => 0
  | .smem => 0
  | _ => 0

abbrev bufTy : (tb : Table) → Fin (tcTables nBuf tb) → BufTy
  | .hbm, ⟨0, _⟩ => ⟨S16x2048x1, .f32⟩
  | .hbm, ⟨1, _⟩ => ⟨S16x2048x64, .f32⟩
  | .hbm, ⟨2, _⟩ => ⟨S1x2048x1, .f32⟩
  | .hbm, ⟨3, _⟩ => ⟨S1x1x2048, .f32⟩
  | .hbm, ⟨4, _⟩ => ⟨S16x2048x2048, .f32⟩
  | .hbm, ⟨5, _⟩ => ⟨S16x2048x2048, .f32⟩
  | .hbm, ⟨6, _⟩ => ⟨S16x2048x2048, .f32⟩
  | .hbm, ⟨7, _⟩ => ⟨S16x2048x2048, .f32⟩
  | .hbm, ⟨8, _⟩ => ⟨S16x2048x2048, .f32⟩
  | .hbm, ⟨9, _⟩ => ⟨S_, .f32⟩
  | .hbm, ⟨10, _⟩ => ⟨S16x2048, .f32⟩
  | .hbm, ⟨11, _⟩ => ⟨S16x2048x1, .f32⟩
  | .hbm, ⟨12, _⟩ => ⟨S16x2048x2048, .f32⟩
  | .hbm, ⟨13, _⟩ => ⟨S16x2048x2048, .f32⟩
  | .hbm, ⟨14, _⟩ => ⟨S_, .f32⟩
  | .hbm, ⟨15, _⟩ => ⟨S16x2048, .f32⟩
  | .hbm, ⟨16, _⟩ => ⟨S_, .f32⟩
  | .hbm, ⟨17, _⟩ => ⟨S16x2048, .f32⟩
  | .hbm, ⟨18, _⟩ => ⟨S16x2048, .f32⟩
  | .hbm, ⟨19, _⟩ => ⟨S16x2048x1, .f32⟩
  | .hbm, ⟨20, _⟩ => ⟨S16x2048x2048, .f32⟩
  | .hbm, ⟨21, _⟩ => ⟨S16x2048x2048, .f32⟩
  | .hbm, ⟨22, _⟩ => ⟨S16x2048x2048, .f32⟩
  | .hbm, ⟨23, _⟩ => ⟨S_, .f32⟩
  | .hbm, ⟨24, _⟩ => ⟨S16x2048, .f32⟩
  | .hbm, ⟨25, _⟩ => ⟨S16x2048x1, .f32⟩
  | .hbm, ⟨26, _⟩ => ⟨S16x2048x2048, .f32⟩
  | .hbm, ⟨27, _⟩ => ⟨S16x2048x2048, .f32⟩
  | .hbm, ⟨28, _⟩ => ⟨S16x2048x64, .f32⟩
  | _, _ => ⟨S16x2048x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]

class Facts₀ : Prop where
  shapeCasts_S1x2048x1_S1x1x2048 : S1x2048x1.ShapeCasts S1x1x2048
  bcast_S16x2048x1_S16x2048x2048_0_1_2 : S16x2048x1.BroadcastsInDim S16x2048x2048 (![0, 1, 2] : Fin 3 → Fin S16x2048x2048.rank)
  bcast_S1x1x2048_S16x2048x2048_0_1_2 : S1x1x2048.BroadcastsInDim S16x2048x2048 (![0, 1, 2] : Fin 3 → Fin S16x2048x2048.rank)
  reducesTo_S16x2048x2048_S16x2048_d2 : S16x2048x2048.ReducesTo [2] S16x2048
  h_S_ : 0 < S_.numel
  bcast_S16x2048_S16x2048x1_0_1 : S16x2048.BroadcastsInDim S16x2048x1 (![0, 1] : Fin 2 → Fin S16x2048x1.rank)
  bcast_S_S16x2048 : S_.BroadcastsInDim S16x2048 (![] : Fin 0 → Fin S16x2048.rank)
  dot_S16x2048x2048_S16x2048x64_S16x2048x64_2_1_1_2_0_0_wf : DotDims.WF S16x2048x2048 S16x2048x64 S16x2048x64 [2] [1] [1] [2] [0] [0]

variable [Facts₀]

def dot_S16x2048x2048_S16x2048x64_S16x2048x64_2_1_1_2_0_0 : DotDims S16x2048x2048 S16x2048x64 S16x2048x64 where
  lhsContracting := [2]
  rhsContracting := [1]
  lhsNonContracting := [1]
  rhsNonContracting := [2]
  lhsBatch := [0]
  rhsBatch := [0]
  wf := dot_S16x2048x2048_S16x2048x64_S16x2048x64_2_1_1_2_0_0_wf

class Facts : Prop extends Facts₀ where

variable [Facts]
-- ==== Proof.LibSoftRow.lean ====
/-
  Soft alignment weights of one query against a finite family of keys, on the extended reals.

  For a real query `σ` and real keys `θ k` the weight of key `j` is

      w j = e^(-|σ - θ j|) / ∑ k, e^(-|σ - θ k|).

  Two ways of computing it on the extended reals are shown to give this real number when the inputs are real.

  * The factored form: `e^(-|σ - t|) = min (e^σ · e^(-t)) (e^(-σ) · e^t)`, because `e^σ · e^(-t) = e^(σ - t)`,
    `e^(-σ) · e^t = e^(-(σ - t))`, the exponential is monotone and `min x (-x) = -|x|`; the row is then divided by its sum.
  * The shifted softmax form: with `d k = max (σ - θ k) (-(σ - θ k)) = |σ - θ k|`, `M` the maximum of the `d k`,
    `x k = -d k - M`, `M'` the maximum of the `x k`, the weight is `e^(x j - M') / (0 + ∑ k, e^(x k - M'))`.
    Both maxima are maxima of finitely many (and at least one) reals, hence real, so `x k - M' = -d k + c` with one real
    `c = -M - M'` for the whole row, `e^(-d k + c) = e^(-d k) · e^c`, and the positive factor `e^c` cancels in the quotient.

  On the extended reals themselves neither identity holds at infinities (`e^⊤ · e^(-⊤)` is `⊤ · 0 = 0`, while
  `e^(-|⊤ - ⊤|)` is `e^(-⊥)`): that every input is real is what is used.
-/
import Idealize.ShloMosaic.PureOps.Ideal

noncomputable section

open scoped BigOperators

namespace Cert.LibSoftRow

open Idealize.ShloMosaic

variable {ι : Type} [Fintype ι]

/-- The image of a finite sum of reals is the sum of the images. -/
theorem coe_sum (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The embedding of the reals is monotone, so it commutes with `max` and `min`. -/
theorem coe_max (x y : ℝ) : ((max x y : ℝ) : EReal) = max (x : EReal) (y : EReal) :=
  EReal.coe_strictMono.monotone.map_max
theorem coe_min (x y : ℝ) : ((min x y : ℝ) : EReal) = min (x : EReal) (y : EReal) :=
  EReal.coe_strictMono.monotone.map_min

/-- The maximum, taken from `-∞`, of a nonempty finite family of reals is a real. -/
theorem fold_max_bot_coe [Nonempty ι] (r : ι → ℝ) :
    ∃ M : ℝ, (Finset.univ : Finset ι).fold max (⊥ : EReal) (fun k => (r k : EReal)) = (M : EReal) := by
  classical
  have key : ∀ s : Finset ι, s.Nonempty →
      ∃ M : ℝ, s.fold max (⊥ : EReal) (fun k => (r k : EReal)) = (M : EReal) := by
    intro s hs
    induction hs using Finset.Nonempty.cons_induction with
    | singleton a => exact ⟨r a, by rw [Finset.fold_singleton]; exact max_eq_left bot_le⟩
    | cons a s ha hs ih =>
      obtain ⟨M, hM⟩ := ih
      exact ⟨max (r a) M, by rw [Finset.fold_cons, hM, coe_max]⟩
  exact key _ Finset.univ_nonempty

/-- The weight of key `j`: `e^(-|σ - θ j|)` over the sum of the row. -/
def soft (σ : ℝ) (θ : ι → ℝ) (j : ι) : ℝ := Real.exp (-|σ - θ j|) / ∑ k, Real.exp (-|σ - θ k|)

theorem sum_exp_pos [Nonempty ι] (f : ι → ℝ) : 0 < ∑ k, Real.exp (f k) :=
  Finset.sum_pos (fun k _ => Real.exp_pos _) Finset.univ_nonempty

/-! ## The factored form -/

/-- `min (e^a · e^(0 - t)) (e^(0 - a) · e^t)`: the unnormalised weight in factored form. -/
def kerTerm (a t : EReal) : EReal := min (Ideal.exp a * Ideal.exp (0 - t)) (Ideal.exp (0 - a) * Ideal.exp t)

/-- The factored form divided by the sum of its row. -/
def kerRow (a : EReal) (τ : ι → EReal) (j : ι) : EReal := Ideal.div (kerTerm a (τ j)) (∑ k, kerTerm a (τ k))

/-- On the reals `min (e^x) (e^(-x)) = e^(-|x|)`. -/
theorem min_exp_exp_neg (x : ℝ) : min (Real.exp x) (Real.exp (-x)) = Real.exp (-|x|) := by
  rcases le_total 0 x with h | h
  · rw [abs_of_nonneg h, min_eq_right (Real.exp_le_exp.mpr (by linarith))]
  · rw [abs_of_nonpos h, neg_neg, min_eq_left (Real.exp_le_exp.mpr (by linarith))]

theorem kerTerm_coe (σ t : ℝ) : kerTerm (σ : EReal) (t : EReal) = ((Real.exp (-|σ - t|) : ℝ) : EReal) := by
  unfold kerTerm
  rw [zero_sub, zero_sub, ← EReal.coe_neg, ← EReal.coe_neg, Ideal.exp_coe, Ideal.exp_coe, Ideal.exp_coe, Ideal.exp_coe,
    ← EReal.coe_mul, ← EReal.coe_mul, ← coe_min, ← Real.exp_add, ← Real.exp_add,
    show σ + -t = σ - t by ring, show -σ + t = -(σ - t) by ring, min_exp_exp_neg]

/-- The ratio of two reals, the divisor not zero, on the extended reals. -/
theorem div_coe_coe (x y : ℝ) (hy : y ≠ 0) : Ideal.div (x : EReal) (y : EReal) = ((x / y : ℝ) : EReal) := by
  rw [Ideal.div_coe hy, ← EReal.coe_mul, mul_one_div]

theorem kerRow_coe [Nonempty ι] (σ : ℝ) (θ : ι → ℝ) (j : ι) :
    kerRow (σ : EReal) (fun k => (θ k : EReal)) j = ((soft σ θ j : ℝ) : EReal) := by
  unfold kerRow soft
  simp only [kerTerm_coe]
  rw [← coe_sum, div_coe_coe _ _ (sum_exp_pos _).ne']

/-! ## The shifted softmax form -/

/-- `max (a - t) (-(a - t))`: the distance. -/
def refDist (a t : EReal) : EReal := max (a - t) (-(a - t))

/-- Minus the distance, minus the row's largest distance. -/
def refShift (a : EReal) (τ : ι → EReal) (j : ι) : EReal :=
  -(refDist a (τ j)) - Finset.univ.fold max ⊥ (fun k => refDist a (τ k))

/-- The exponential of the shifted value less the row's largest shifted value. -/
def refExp (a : EReal) (τ : ι → EReal) (j : ι) : EReal :=
  Ideal.exp (refShift a τ j - max ⊥ (Finset.univ.fold max ⊥ (fun k => refShift a τ k)))

/-- The shifted softmax form: that exponential over zero plus the sum of its row. -/
def refRow (a : EReal) (τ : ι → EReal) (j : ι) : EReal := Ideal.div (refExp a τ j) (0 + ∑ k, refExp a τ k)

theorem refDist_coe (σ t : ℝ) : refDist (σ : EReal) (t : EReal) = ((|σ - t| : ℝ) : EReal) := by
  unfold refDist
  rw [← EReal.coe_sub, ← EReal.coe_neg, ← coe_max, abs_eq_max_neg]

theorem refRow_coe [Nonempty ι] (σ : ℝ) (θ : ι → ℝ) (j : ι) :
    refRow (σ : EReal) (fun k => (θ k : EReal)) j = ((soft σ θ j : ℝ) : EReal) := by
  obtain ⟨M, hM⟩ := fold_max_bot_coe (fun k => |σ - θ k|)
  have hshift : ∀ k, refShift (σ : EReal) (fun k => (θ k : EReal)) k = ((-|σ - θ k| - M : ℝ) : EReal) := by
    intro k
    unfold refShift
    simp only [refDist_coe]
    rw [hM, ← EReal.coe_neg, ← EReal.coe_sub]
  obtain ⟨M', hM'⟩ := fold_max_bot_coe (fun k => -|σ - θ k| - M)
  have hexp : ∀ k, refExp (σ : EReal) (fun k => (θ k : EReal)) k
      = ((Real.exp (-|σ - θ k|) * Real.exp (-M - M') : ℝ) : EReal) := by
    intro k
    unfold refExp
    simp only [hshift]
    rw [hM', max_eq_right bot_le, ← EReal.coe_sub, Ideal.exp_coe, ← Real.exp_add]
    congr 2
    ring
  unfold refRow soft
  simp only [hexp]
  rw [zero_add, ← coe_sum, ← Finset.sum_mul,
    div_coe_coe _ _ (mul_pos (sum_exp_pos _) (Real.exp_pos _)).ne',
    mul_div_mul_right _ _ (Real.exp_pos _).ne']

end Cert.LibSoftRow

end
-- ==== Proof.LibColumn.lean ====
/-
  Column vectors read at an index.

  A vector of length `a` re-laid as an `a × 1` column holds, at row `i`, the vector's entry `i`.
  An `a × 1` column broadcast to `a × b` holds, at `(p, c)`, the column's entry at row `p`.
  Summing an `a × 1` column over its rows, or an `a × b` array over its columns, inserts the summed
  coordinate at the place the reduced index leaves open: the inserted index is `(k, u)` resp. `(r, k)`.
-/
import Idealize.ShloMosaic.Lib.Pipeline.Value
import Idealize.ShloMosaic.Lib.ValueIdx
import Idealize.ShloMosaic.PureOps.Reduce

namespace Cert.LibColumn

open Idealize.ShloMosaic Idealize.ShloMosaic.ValueIdx

variable {α : Type}

/-- A length-`a` vector cast to an `a × 1` column reads, at `(i, 0)`, the vector at `i`:
    both positions are number `i` in row-major order. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Summing an `a × b` array along its columns: the index of row `r` with column `k` put back is `(r, k)`. -/
theorem lift_cols {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- Summing an `a × 1` column along its rows: the one reduced index with row `k` put back is `(k, 0)`. -/
theorem lift_rows {a : ℕ} (h : (⟨2, ![a, 1]⟩ : Shape).Reduces [0] (⟨1, ![1]⟩ : Shape)) (u : Fin 1)
    (k : Fin ((⟨2, ![a, 1]⟩ : Shape).size 0)) : h.lift (ix1 u) k = ix2 (⟨k.val, k.isLt⟩ : Fin a) u := by
  funext c; apply Fin.ext
  fin_cases c <;> rfl

end Cert.LibColumn
-- ==== Proof.LibPlainMatmul.lean ====
/-
  A plain matrix product `[M, K] · [K, N]` on the extended reals, accumulated into the zero matrix, read at the entry
  `(p, q)`: the sum over `k : Fin K` of `l (p, k) · r (k, q)`.

  The library states a `tpu.matmul` at an output index as a sum over the contraction shape's index set, with the
  operands read at `lhsIdx` / `rhsIdx`; for the dimension numbers `⟨[1], [0], [0], [1], [], []⟩` that index set is
  one axis of extent `K`, the left index is `(p, k)` and the right index is `(k, q)`. The statement takes any
  dimension record equal to `DotDims.plain M K N` (a record is determined by its six lists, so a printed one with these
  lists is equal to it by `rfl`).
-/
import Idealize.ShloMosaic.PureOps.Ideal.Laws
import Idealize.ShloMosaic.Lib.ValueIdx

noncomputable section

open scoped BigOperators

namespace Cert.LibPlainMatmul

open Idealize.ShloMosaic Idealize.ShloMosaic.ValueIdx

/-- The left operand's index of the plain product at output `(p, q)` and contraction coordinate `k` is `(p, k)`. -/
theorem plain_lhsIdx {M K N : ℕ} (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index there is `(k, q)`. -/
theorem plain_rhsIdx {M K N : ℕ} (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A plain `[M, K] · [K, N]` product into the zero accumulator, at `(p, q)`, is `∑ k, l (p, k) · r (k, q)`. -/
theorem matmul_plain_zero_apply {M K N : ℕ} {φ₁ φ₂ : FTy}
    (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (p : Fin M) (q : Fin N) :
    FloatOps.matmul D prec l r (constant ⟨2, ![M, N]⟩ .f32 0x00000000#32) (ix2 p q)
      = ∑ k : Fin K, l (ix2 p k) * r (ix2 k q) := by
  subst hD
  rw [Ideal.matmul_constant_zero_apply, ← Equiv.sum_comp (contrEquiv1 (DotDims.plain M K N) K rfl rfl).symm]
  refine Finset.sum_congr rfl fun k _ => ?_
  rw [plain_lhsIdx, plain_rhsIdx]

end Cert.LibPlainMatmul

end
-- ==== Proof.KernelPayload.lean ====
/-
  The kernel body's arithmetic read at an index, on the extended reals.

  For a tile of 512 query rows the body forms, from the tile's scores `P0` (a [1, 512, 1] block) and the keys `P1`
  (a [1, 1, 2048] block), the [512, 2048] array of unnormalised weights `min (e^s · e^(0 - t)) (e^(0 - s) · e^t)`, sums each
  row, and divides each row by its sum: entry `(p, q)` of the quotient is the soft alignment weight (factored form) of
  key `q` for the query `P0 (0, p, 0)` against the keys `P1 (0, 0, ·)`. The second stored value is the product of that
  [512, 2048] array with the tile's [2048, 64] feature block `P2`: entry `(p, f)` is the sum over the keys `k` of the
  weight `(p, k)` times `P2 (0, k, f)` (a change of float format is the identity here).
-/
import proofs.«180038_j11888469475489_2_alg».proof.Proof.Gen.KernelIdeal.Skeleton
import proofs.«180038_j11888469475489_2_alg».proof.Proof.LibSoftRow
import proofs.«180038_j11888469475489_2_alg».proof.Proof.LibColumn
import proofs.«180038_j11888469475489_2_alg».proof.Proof.LibPlainMatmul
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx Cert.LibSoftRow

/-- The [512, 2048] array of unnormalised weights of a tile. -/
def tileTerm (P0 : FVec Ideal S1x512x1 .f32) (P1 : FVec Ideal S1x1x2048 .f32) : FVec Ideal S512x2048 .f32 :=
  minimumf
    (mulf (broadcastTo S512x2048 (exp (shapeCast S512x1 P0 shapeCasts_S1x512x1_S512x1)) broadcasts_S512x1_S512x2048)
      (broadcastTo S512x2048 (exp (subf (broadcast S1x2048 (Scalar.ofBits .f32 0x00000000#32)) (shapeCast S1x2048 P1 shapeCasts_S1x1x2048_S1x2048))) broadcasts_S1x2048_S512x2048))
    (mulf (broadcastTo S512x2048 (exp (subf (broadcast S512x1 (Scalar.ofBits .f32 0x00000000#32)) (shapeCast S512x1 P0 shapeCasts_S1x512x1_S512x1))) broadcasts_S512x1_S512x2048)
      (broadcastTo S512x2048 (exp (shapeCast S1x2048 P1 shapeCasts_S1x1x2048_S1x2048)) broadcasts_S1x2048_S512x2048))

/-- The scalar zero the body subtracts from is the extended real `0`. -/
theorem scalar_zero : (Scalar.ofBits (F := Ideal) .f32 0x00000000#32) = (0 : EReal) := Ideal.ofBits_zero_f32

/-- Entry `(p, q)` of the unnormalised weights: the factored term of the query `P0 (0, p, 0)` and the key `P1 (0, 0, q)`. -/
theorem tileTerm_apply (P0 : FVec Ideal S1x512x1 .f32) (P1 : FVec Ideal S1x1x2048 .f32) (p : Fin 512) (q : Fin 2048) :
    tileTerm P0 P1 (ix2 p q) = kerTerm (P0 (ix3 (0 : Fin 1) p (0 : Fin 1))) (P1 (ix3 (0 : Fin 1) (0 : Fin 1) q)) := by
  have c0 : ∀ u : Fin 1, shapeCast S512x1 P0 shapeCasts_S1x512x1_S512x1 (ix2 p u) = P0 (ix3 (0 : Fin 1) p (0 : Fin 1)) := fun u => by
    have hu : u = 0 := Subsingleton.elim _ _
    subst hu
    exact shapeCast_1ab_ab_apply (a := 512) (b := 1) P0 shapeCasts_S1x512x1_S512x1 p 0
  have c1 : shapeCast S1x2048 P1 shapeCasts_S1x1x2048_S1x2048 (ix2 (0 : Fin 1) q) = P1 (ix3 (0 : Fin 1) (0 : Fin 1) q) :=
    shapeCast_1ab_ab_apply (a := 1) (b := 2048) P1 shapeCasts_S1x1x2048_S1x2048 0 q
  unfold tileTerm kerTerm
  show min (_ * _) (_ * _) = _
  rw [LibColumn.broadcastTo_a1_ab_apply (a := 512) (b := 2048), LibColumn.broadcastTo_a1_ab_apply (a := 512) (b := 2048),
    broadcastTo_1b_ab_apply (a := 512) (b := 2048), broadcastTo_1b_ab_apply (a := 512) (b := 2048)]
  show min (Ideal.exp (shapeCast S512x1 P0 shapeCasts_S1x512x1_S512x1 (ix2 p 0))
        * Ideal.exp (Scalar.ofBits (F := Ideal) .f32 0x00000000#32 - shapeCast S1x2048 P1 shapeCasts_S1x1x2048_S1x2048 (ix2 0 q)))
      (Ideal.exp (Scalar.ofBits (F := Ideal) .f32 0x00000000#32 - shapeCast S512x1 P0 shapeCasts_S1x512x1_S512x1 (ix2 p 0))
        * Ideal.exp (shapeCast S1x2048 P1 shapeCasts_S1x1x2048_S1x2048 (ix2 0 q))) = _
  rw [c0, c1, scalar_zero]

/-- The quotient the body stores (before it is re-laid) is the unnormalised weights over their row sums. -/
theorem pay1_eq (P0 : FVec Ideal S1x512x1 .f32) (P1 : FVec Ideal S1x1x2048 .f32) :
    k0_pay1 (F := Ideal) P0 P1 = divf (tileTerm P0 P1)
      (broadcastTo S512x2048 (shapeCast S512x1
        (multiReduction .add [1] S512 (tileTerm P0 P1) 0x00000000#32 reduces_S512x2048_S512 (.inl rfl) rfl)
        shapeCasts_S512_S512x1) broadcasts_S512x1_S512x2048) := rfl

/-- A row sum of a [512, 2048] array, at row `p`: the sum over the columns. -/
theorem rowSum_apply (x : FVec Ideal S512x2048 .f32) (hφ : FKind.Formats .f32)
    (hacc : (0x00000000#32 : BitVec 32) = FKind.add.neutral .f32 hφ) (p : Fin 512) :
    multiReduction .add [1] S512 x 0x00000000#32 reduces_S512x2048_S512 hφ hacc (ix1 p) = ∑ k : Fin 2048, x (ix2 p k) := by
  refine (Ideal.multiReduction_add_single x 0x00000000#32 reduces_S512x2048_S512 hφ hacc (ix1 p)).trans ?_
  exact Finset.sum_congr rfl fun k _ => congrArg x (LibColumn.lift_cols (a := 512) (b := 2048) reduces_S512x2048_S512 p k)

/-- Entry `(p, q)` of the quotient: the weight of key `q` for the query `P0 (0, p, 0)`. -/
theorem pay1_apply (P0 : FVec Ideal S1x512x1 .f32) (P1 : FVec Ideal S1x1x2048 .f32) (p : Fin 512) (q : Fin 2048) :
    k0_pay1 (F := Ideal) P0 P1 (ix2 p q)
      = kerRow (P0 (ix3 (0 : Fin 1) p (0 : Fin 1))) (fun k : Fin 2048 => P1 (ix3 (0 : Fin 1) (0 : Fin 1) k)) q := by
  rw [pay1_eq]
  show Ideal.div (tileTerm P0 P1 (ix2 p q)) (broadcastTo S512x2048 _ broadcasts_S512x1_S512x2048 (ix2 p q)) = _
  rw [LibColumn.broadcastTo_a1_ab_apply (a := 512) (b := 2048), LibColumn.shapeCast_a_a1_apply (a := 512)]
  refine (congrArg (Ideal.div _) (rowSum_apply (tileTerm P0 P1) _ _ p)).trans ?_
  unfold kerRow
  rw [tileTerm_apply]
  exact congrArg _ (Finset.sum_congr rfl fun k _ => tileTerm_apply P0 P1 p k)

/-- The first stored value, a [1, 512, 2048] block, at `(0, p, q)`. -/
theorem pay2_apply (P0 : FVec Ideal S1x512x1 .f32) (P1 : FVec Ideal S1x1x2048 .f32) (u : Fin 1) (p : Fin 512) (q : Fin 2048) :
    k0_pay2 (F := Ideal) P0 P1 (ix3 u p q)
      = kerRow (P0 (ix3 (0 : Fin 1) p (0 : Fin 1))) (fun k : Fin 2048 => P1 (ix3 (0 : Fin 1) (0 : Fin 1) k)) q := by
  unfold k0_pay2
  exact (shapeCast_ab_1ab_apply (a := 512) (b := 2048) _ shapeCasts_S512x2048_S1x512x2048 u p q).trans (pay1_apply P0 P1 p q)

/-- The second stored value, a [1, 512, 64] block, at `(0, p, f)`: the weights of row `p` against column `f` of the features. -/
theorem pay3_apply (P0 : FVec Ideal S1x512x1 .f32) (P1 : FVec Ideal S1x1x2048 .f32) (P2 : FVec Ideal S1x2048x64 .bf16)
    (u : Fin 1) (p : Fin 512) (f : Fin 64) :
    k0_pay3 (F := Ideal) P0 P1 P2 (ix3 u p f)
      = ∑ k : Fin 2048, kerRow (P0 (ix3 (0 : Fin 1) p (0 : Fin 1))) (fun k : Fin 2048 => P1 (ix3 (0 : Fin 1) (0 : Fin 1) k)) k
          * P2 (ix3 (0 : Fin 1) k f) := by
  unfold k0_pay3
  refine (shapeCast_ab_1ab_apply (a := 512) (b := 64) _ shapeCasts_S512x64_S1x512x64 u p f).trans ?_
  refine (LibPlainMatmul.matmul_plain_zero_apply (M := 512) (K := 2048) (N := 64)
    dot_S512x2048_S2048x64_S512x64_1_0_0_1_n_n rfl none _ _ p f).trans ?_
  refine Finset.sum_congr rfl fun k _ => ?_
  show k0_pay1 (F := Ideal) P0 P1 (ix2 p k) * shapeCast S2048x64 P2 shapeCasts_S1x2048x64_S2048x64 (ix2 k f) = _
  rw [pay1_apply, shapeCast_1ab_ab_apply (a := 2048) (b := 64)]

end Cert.KernelIdeal.Payload

end
-- ==== Proof.Spec.lean ====
/-
  The two results as functions of the three argument arrays, index by index.

  `score` is a [16, 2048, 1] array, `template` a [1, 2048, 1] array, `feature` a [16, 2048, 64] array.
  For batch `b` and query row `i`, the weight of key `j` is the soft alignment weight of the query `score (b, i, 0)`
  against the keys `template (0, k, 0)`, in its factored form (`LibSoftRow.kerRow`); the aligned feature at `(b, i, f)`
  is the sum over the keys `k` of that weight times `feature (b, k, f)`.
-/
import proofs.«180038_j11888469475489_2_alg».proof.Proof.LibSoftRow
import Idealize.ShloMosaic.Lib.ValueIdx

noncomputable section

open scoped BigOperators

namespace Cert.Spec

open Idealize.ShloMosaic Idealize.ShloMosaic.ValueIdx Cert.LibSoftRow

/-- The keys: `template (0, k, 0)` for `k : Fin 2048`. -/
def keys (tp : (⟨3, ![1, 2048, 1]⟩ : Shape).Idx → EReal) : Fin 2048 → EReal :=
  fun k => tp (ix3 (0 : Fin 1) k (0 : Fin 1))

/-- The weights, a [16, 2048, 2048] array: entry `(b, i, j)` is the weight of key `j` for the query `score (b, i, 0)`. -/
def pathG (sc : (⟨3, ![16, 2048, 1]⟩ : Shape).Idx → EReal) (tp : (⟨3, ![1, 2048, 1]⟩ : Shape).Idx → EReal) :
    (⟨3, ![16, 2048, 2048]⟩ : Shape).Idx → EReal :=
  fun i => kerRow (sc (ix3 (i 0) (i 1) (0 : Fin 1))) (keys tp) (i 2)

/-- The aligned features, a [16, 2048, 64] array: entry `(b, i, f)` is `∑ k, weight (b, i, k) · feature (b, k, f)`. -/
def alignedG (sc : (⟨3, ![16, 2048, 1]⟩ : Shape).Idx → EReal) (ft : (⟨3, ![16, 2048, 64]⟩ : Shape).Idx → EReal)
    (tp : (⟨3, ![1, 2048, 1]⟩ : Shape).Idx → EReal) : (⟨3, ![16, 2048, 64]⟩ : Shape).Idx → EReal :=
  fun i => ∑ k : Fin 2048, pathG sc tp (ix3 (i 0) (i 1) k) * ft (ix3 (i 0) k (i 2))

theorem pathG_apply (sc : (⟨3, ![16, 2048, 1]⟩ : Shape).Idx → EReal) (tp : (⟨3, ![1, 2048, 1]⟩ : Shape).Idx → EReal)
    (b : Fin 16) (i : Fin 2048) (j : Fin 2048) :
    pathG sc tp (ix3 b i j) = kerRow (sc (ix3 b i (0 : Fin 1))) (keys tp) j := rfl

theorem alignedG_apply (sc : (⟨3, ![16, 2048, 1]⟩ : Shape).Idx → EReal) (ft : (⟨3, ![16, 2048, 64]⟩ : Shape).Idx → EReal)
    (tp : (⟨3, ![1, 2048, 1]⟩ : Shape).Idx → EReal) (b : Fin 16) (i : Fin 2048) (f : Fin 64) :
    alignedG sc ft tp (ix3 b i f) = ∑ k : Fin 2048, kerRow (sc (ix3 b i (0 : Fin 1))) (keys tp) k * ft (ix3 b k f) := rfl

end Cert.Spec

end
-- ==== Proof.KernelBlocks.lean ====
/-
  From blocks to arrays: what the two result arrays hold after the kernel's run.

  The grid has 16 × 4 points; point `(b, g)` handles batch `b` and the 512 query rows `512 g … 512 g + 511`. It reads
  the scores of those rows, all 2048 keys (the template with its last two axes exchanged, so key `k` sits at `(0, 0, k)`),
  and the [2048, 64] feature block of batch `b` (the features after a change of float format, the identity here); it
  writes rows `512 g … 512 g + 511` of batch `b` of both results. Entry `(0, p, q)` of the block of weights it writes is
  the weight of key `q` for query row `512 g + p`, and entry `(0, p, f)` of the block of aligned features is the sum over
  the keys of weight times feature: these are the blocks of the two specification arrays. The 64 blocks tile each
  result array (row `r` of batch `b` belongs to point `(b, r / 512)`), so each array ends equal to its specification.
-/
import proofs.«180038_j11888469475489_2_alg».proof.Proof.Gen.KernelIdeal.Value
import proofs.«180038_j11888469475489_2_alg».proof.Proof.KernelPayload
import proofs.«180038_j11888469475489_2_alg».proof.Proof.Spec
import Idealize.ShloMosaic.Lib.StableHlo.Run
import Idealize.ShloMosaic.Lib.ValueLayout
import Idealize.ShloMosaic.Lib.Pipeline.Value

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx Cert.LibSoftRow Cert.Spec
open Idealize.ShloMosaic.Pipeline (Dat)

variable (m : (ℓ : Loc nD τ sig) → Buf (Elt Ideal) ℓ) (ρ : Dev nD → PrngReg)

/-! ## The arrays the region finds -/

/-- The keys as the region finds them: the template with its last two axes exchanged. -/
theorem V_keys (c : Dev nD) (k : Fin 2048) :
    (V m c main_v0 : S1x1x2048.Idx → EReal) (ix3 (0 : Fin 1) (0 : Fin 1) k)
      = (m ((c : Thread nD τ).loc main_arg2) : S1x2048x1.Idx → EReal) (ix3 (0 : Fin 1) k (0 : Fin 1)) := by
  have e : (V m c main_v0 : S1x1x2048.Idx → EReal)
      = transpose S1x1x2048 [0, 2, 1] (m ((c : Thread nD τ).loc main_arg2) : S1x2048x1.Idx → EReal) transposes_S1x2048x1_S1x1x2048_0_2_1 := by
    dsimp only [Gen.V, Gen.hostOps0]; after_results
  rw [e]
  exact transpose_ix3_021_apply (m := 1) (a := 2048) (b := 1) _ transposes_S1x2048x1_S1x1x2048_0_2_1 0 0 k

/-- The feature array as the region finds it: the argument (a change of float format is the identity). -/
theorem V_feat (c : Dev nD) :
    (V m c main_v1 : S16x2048x64.Idx → EReal) = (m ((c : Thread nD τ).loc main_arg1) : S16x2048x64.Idx → EReal) := by
  dsimp only [Gen.V, Gen.hostOps0]; after_results; rfl

/-! ## The index maps over the grid -/

theorem hz : (![0, 0, 0] : Fin 3 → Nat) = fun _ => 0 := funext fun a => by fin_cases a <;> rfl

/-- The printed index maps, decided over the 64 grid points: the score block and both result blocks move together
    (batch, row group, 0), the key block stays at the origin, the feature block follows the batch only. -/
theorem idx_facts : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 3) = 0 ∧ win0_1.index t (1 : Fin 3) = 0 ∧ win0_1.index t (2 : Fin 3) = 0
    ∧ win0_2.index t (0 : Fin 3) = win0_4.index t (0 : Fin 3) ∧ win0_2.index t (1 : Fin 3) = 0 ∧ win0_2.index t (2 : Fin 3) = 0
    ∧ win0_3.index t (0 : Fin 3) = win0_4.index t (0 : Fin 3) ∧ win0_3.index t (1 : Fin 3) = win0_4.index t (1 : Fin 3)
    ∧ win0_3.index t (2 : Fin 3) = 0
    ∧ win0_4.index t (0 : Fin 3) ≤ 15 ∧ win0_4.index t (1 : Fin 3) ≤ 3 ∧ win0_4.index t (2 : Fin 3) = 0 :=
  (by decide +kernel : ∀ t : Fin grid0.N, _)

/-- Every (batch, row group) is some point's. -/
theorem idx_onto : ∀ (q0 : Fin 16) (q1 : Fin 4), ∃ t : Fin cfg0.N, win0_4.index t = ![q0.val, q1.val, 0] :=
  (by decide +kernel : ∀ (q0 : Fin 16) (q1 : Fin 4), ∃ t : Fin grid0.N, win0_4.index t = ![q0.val, q1.val, 0])

/-! ## What a point writes back -/

/-- The score block of point `t` at `(0, p, 0)`: the score of batch `b`, row `512 g + p`, where `(b, g, 0)` is the
    block index of the point. -/
theorem score_blk (c : Dev nD) (t : Fin cfg0.N) (p : Fin 512) (i : S16x2048x1.Idx)
    (h0 : (i 0).val = win0_4.index t (0 : Fin 3)) (h1 : (i 1).val = win0_4.index t (1 : Fin 3) * 512 + p.val) :
    iblk m c 0 t (ix3 (0 : Fin 1) p (0 : Fin 1)) = (m ((c : Thread nD τ).loc main_arg0) : S16x2048x1.Idx → EReal) i := by
  obtain ⟨e00, e01, e02, -⟩ := idx_facts t
  show V m c main_arg0 (((cfg0.win 0).blk t).view.emb (ix3 (0 : Fin 1) p (0 : Fin 1))) = _
  rw [V_main_arg0]
  refine congrArg _ (funext fun a => Fin.ext ?_)
  have hi2 : (i 2).val < 1 := (i 2).isLt
  match a with
  | ⟨0, _⟩ => show win0_0.index t (0 : Fin 3) * 1 + 1 * 0 = (i 0).val; omega
  | ⟨1, _⟩ => show win0_0.index t (1 : Fin 3) * 512 + 1 * p.val = (i 1).val; omega
  | ⟨2, _⟩ => show win0_0.index t (2 : Fin 3) * 1 + 1 * 0 = (i 2).val; omega

/-- The key block of any point at `(0, 0, k)`: key `k` of the template. -/
theorem key_blk (c : Dev nD) (t : Fin cfg0.N) (k : Fin 2048) :
    iblk m c 1 t (ix3 (0 : Fin 1) (0 : Fin 1) k) = keys (m ((c : Thread nD τ).loc main_arg2) : S1x2048x1.Idx → EReal) k := by
  obtain ⟨-, -, -, e10, e11, e12, -⟩ := idx_facts t
  show V m c main_v0 (((cfg0.win 1).blk t).view.emb (ix3 (0 : Fin 1) (0 : Fin 1) k)) = _
  refine Eq.trans (congrArg _ (funext fun a => Fin.ext ?_)) (V_keys m c k)
  match a with
  | ⟨0, _⟩ => show win0_1.index t (0 : Fin 3) * 1 + 1 * 0 = 0; omega
  | ⟨1, _⟩ => show win0_1.index t (1 : Fin 3) * 1 + 1 * 0 = 0; omega
  | ⟨2, _⟩ => show win0_1.index t (2 : Fin 3) * 2048 + 1 * k.val = k.val; omega

/-- The feature block of point `t` at `(0, k, f)`: the feature of the point's batch at `(k, f)`. -/
theorem feat_blk (c : Dev nD) (t : Fin cfg0.N) (k : Fin 2048) (f : Fin 64) (b : Fin 16)
    (h0 : b.val = win0_4.index t (0 : Fin 3)) :
    iblk m c 2 t (ix3 (0 : Fin 1) k f) = (m ((c : Thread nD τ).loc main_arg1) : S16x2048x64.Idx → EReal) (ix3 b k f) := by
  obtain ⟨-, -, -, -, -, -, e20, e21, e22, -⟩ := idx_facts t
  show V m c main_v1 (((cfg0.win 2).blk t).view.emb (ix3 (0 : Fin 1) k f)) = _
  rw [V_feat]
  refine congrArg _ (funext fun a => Fin.ext ?_)
  match a with
  | ⟨0, _⟩ => show win0_2.index t (0 : Fin 3) * 1 + 1 * 0 = b.val; omega
  | ⟨1, _⟩ => show win0_2.index t (1 : Fin 3) * 2048 + 1 * k.val = k.val; omega
  | ⟨2, _⟩ => show win0_2.index t (2 : Fin 3) * 64 + 1 * f.val = f.val; omega

/-- WHAT POINT `t` WRITES BACK to the array of weights is block `t` of the specification. -/
theorem flushed_path (c : Dev nD) (t : Fin cfg0.N) :
    (dats m 0 c).flushed 4 t = ((cfg0.win 4).blk t).view.read (Elt Ideal)
      (pathG (m ((c : Thread nD τ).loc main_arg0)) (m ((c : Thread nD τ).loc main_arg2))) := by
  rw [Value.flushed4]
  unfold out0_4
  rw [View.canon_unit_zero hz]
  simp only [View.ld_unit_zero (S := S1x512x1) hz, View.ld_unit_zero (S := S1x1x2048) hz]
  funext j
  obtain ⟨u, p, q, rfl⟩ : ∃ (u : Fin 1) (p : Fin 512) (q : Fin 2048), j = ix3 u p q := ⟨j 0, j 1, j 2, eq_ix3 j⟩
  show k0_pay2 (F := Ideal) (iblk m c 0 t) (iblk m c 1 t) (ix3 u p q)
    = pathG (m ((c : Thread nD τ).loc main_arg0)) (m ((c : Thread nD τ).loc main_arg2))
        (((cfg0.win 4).blk t).view.emb (ix3 u p q))
  refine (Payload.pay2_apply (iblk m c 0 t) (iblk m c 1 t) u p q).trans ?_
  obtain ⟨-, -, -, -, -, -, -, -, -, -, -, -, -, -, e42⟩ := idx_facts t
  have hu : u.val < 1 := u.isLt
  have hk : (fun k : Fin 2048 => iblk m c 1 t (ix3 (0 : Fin 1) (0 : Fin 1) k))
      = keys (m ((c : Thread nD τ).loc main_arg2) : S1x2048x1.Idx → EReal) := funext (key_blk m c t)
  rw [hk]
  unfold pathG
  rw [score_blk m c t p (ix3 ((((cfg0.win 4).blk t).view.emb (ix3 u p q)) 0) ((((cfg0.win 4).blk t).view.emb (ix3 u p q)) 1) (0 : Fin 1))
    (by show win0_4.index t (0 : Fin 3) * 1 + 1 * u.val = win0_4.index t (0 : Fin 3); omega)
    (by show win0_4.index t (1 : Fin 3) * 512 + 1 * p.val = win0_4.index t (1 : Fin 3) * 512 + p.val; omega)]
  refine congrArg _ (Fin.ext ?_)
  show q.val = win0_4.index t (2 : Fin 3) * 2048 + 1 * q.val
  omega

/-- WHAT POINT `t` WRITES BACK to the array of aligned features is block `t` of the specification. -/
theorem flushed_aligned (c : Dev nD) (t : Fin cfg0.N) :
    (dats m 0 c).flushed 3 t = ((cfg0.win 3).blk t).view.read (Elt Ideal)
      (alignedG (m ((c : Thread nD τ).loc main_arg0)) (m ((c : Thread nD τ).loc main_arg1)) (m ((c : Thread nD τ).loc main_arg2))) := by
  rw [Value.flushed3]
  unfold out0_3
  rw [View.canon_unit_zero hz]
  simp only [View.ld_unit_zero (S := S1x512x1) hz, View.ld_unit_zero (S := S1x1x2048) hz, View.ld_unit_zero (S := S1x2048x64) hz]
  funext j
  obtain ⟨u, p, f, rfl⟩ : ∃ (u : Fin 1) (p : Fin 512) (f : Fin 64), j = ix3 u p f := ⟨j 0, j 1, j 2, eq_ix3 j⟩
  show k0_pay3 (F := Ideal) (iblk m c 0 t) (iblk m c 1 t) (iblk m c 2 t) (ix3 u p f)
    = alignedG (m ((c : Thread nD τ).loc main_arg0)) (m ((c : Thread nD τ).loc main_arg1)) (m ((c : Thread nD τ).loc main_arg2))
        (((cfg0.win 3).blk t).view.emb (ix3 u p f))
  refine (Payload.pay3_apply (iblk m c 0 t) (iblk m c 1 t) (iblk m c 2 t) u p f).trans ?_
  obtain ⟨-, -, -, -, -, -, -, -, -, e30, e31, e32, b0, -, -⟩ := idx_facts t
  have hu : u.val < 1 := u.isLt
  have hk : (fun k : Fin 2048 => iblk m c 1 t (ix3 (0 : Fin 1) (0 : Fin 1) k))
      = keys (m ((c : Thread nD τ).loc main_arg2) : S1x2048x1.Idx → EReal) := funext (key_blk m c t)
  rw [hk]
  unfold alignedG pathG
  refine Finset.sum_congr rfl fun k _ => ?_
  rw [score_blk m c t p (ix3 ((((cfg0.win 3).blk t).view.emb (ix3 u p f)) 0) ((((cfg0.win 3).blk t).view.emb (ix3 u p f)) 1) (0 : Fin 1))
    (by show win0_3.index t (0 : Fin 3) * 1 + 1 * u.val = win0_4.index t (0 : Fin 3); omega)
    (by show win0_3.index t (1 : Fin 3) * 512 + 1 * p.val = win0_4.index t (1 : Fin 3) * 512 + p.val; omega),
    feat_blk m c t k f ((((cfg0.win 3).blk t).view.emb (ix3 u p f)) 0)
    (by show win0_3.index t (0 : Fin 3) * 1 + 1 * u.val = win0_4.index t (0 : Fin 3); omega)]
  refine congrArg _ (congrArg _ (funext fun a => Fin.ext ?_))
  match a with
  | ⟨0, _⟩ => rfl
  | ⟨1, _⟩ => rfl
  | ⟨2, _⟩ => show f.val = win0_3.index t (2 : Fin 3) * 64 + 1 * f.val; omega

/-! ## The blocks tile the arrays -/

/-- An index of the array of weights is in point `t`'s block iff each coordinate is in the block's range on its axis. -/
theorem mem_blk_path (t : Fin cfg0.N) (i : S16x2048x2048.Idx) :
    i ∈ ((cfg0.win 4).blk t).view.set ↔ ∀ a : Fin 3, win0_4.index t a * S1x512x2048.size a ≤ (i a).val
      ∧ (i a).val < win0_4.index t a * S1x512x2048.size a + S1x512x2048.size a := by
  show i ∈ ((View.whole main_v2_1).slice (win0_4.rect t)).set ↔ _
  rw [View.set_slice_whole, Rect.mem_set_unit]
  exact Iff.rfl

/-- The same for the array of aligned features. -/
theorem mem_blk_aligned (t : Fin cfg0.N) (i : S16x2048x64.Idx) :
    i ∈ ((cfg0.win 3).blk t).view.set ↔ ∀ a : Fin 3, win0_3.index t a * S1x512x64.size a ≤ (i a).val
      ∧ (i a).val < win0_3.index t a * S1x512x64.size a + S1x512x64.size a := by
  show i ∈ ((View.whole main_v2_0).slice (win0_3.rect t)).set ↔ _
  rw [View.set_slice_whole, Rect.mem_set_unit]
  exact Iff.rfl

/-- Row `r` of batch `b` of the weights lies in the block of the point with block index `(b, r / 512, 0)`. -/
theorem cover_path (i : S16x2048x2048.Idx) :
    ∃ t : Fin cfg0.N, (cfg0.win 4).flush t = true ∧ i ∈ ((cfg0.win 4).blk t).view.set := by
  have hi0 : (i 0).val < 16 := (i 0).isLt
  have hi1 : (i 1).val < 2048 := (i 1).isLt
  have hi2 : (i 2).val < 2048 := (i 2).isLt
  obtain ⟨t, ht⟩ := idx_onto ⟨(i 0).val, hi0⟩ ⟨(i 1).val / 512, by omega⟩
  have q0 : win0_4.index t (0 : Fin 3) = (i 0).val := congrFun ht 0
  have q1 : win0_4.index t (1 : Fin 3) = (i 1).val / 512 := congrFun ht 1
  have q2 : win0_4.index t (2 : Fin 3) = 0 := congrFun ht 2
  refine ⟨t, flush0_4 t, ?_⟩
  rw [mem_blk_path]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 2048 ≤ (i 2).val ∧ (i 2).val < win0_4.index t (2 : Fin 3) * 2048 + 2048; omega

/-- The same for the aligned features. -/
theorem cover_aligned (i : S16x2048x64.Idx) :
    ∃ t : Fin cfg0.N, (cfg0.win 3).flush t = true ∧ i ∈ ((cfg0.win 3).blk t).view.set := by
  have hi0 : (i 0).val < 16 := (i 0).isLt
  have hi1 : (i 1).val < 2048 := (i 1).isLt
  have hi2 : (i 2).val < 64 := (i 2).isLt
  obtain ⟨t, ht⟩ := idx_onto ⟨(i 0).val, hi0⟩ ⟨(i 1).val / 512, by omega⟩
  obtain ⟨-, -, -, -, -, -, -, -, -, e30, e31, e32, -⟩ := idx_facts t
  have q0 : win0_4.index t (0 : Fin 3) = (i 0).val := congrFun ht 0
  have q1 : win0_4.index t (1 : Fin 3) = (i 1).val / 512 := congrFun ht 1
  refine ⟨t, flush0_3 t, ?_⟩
  rw [mem_blk_aligned]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 64 ≤ (i 2).val ∧ (i 2).val < win0_3.index t (2 : Fin 3) * 64 + 64; omega

/-! ## The arrays after the run -/

theorem final_path (c : Dev nD) : (dats m 0 c).arrAt 4 cfg0.N
    = pathG (m ((c : Thread nD τ).loc main_arg0)) (m ((c : Thread nD τ).loc main_arg2)) :=
  (dats m 0 c).arrAt_eq_of_cover 4 _ (fun t _ => flushed_path m c t) cover_path

theorem final_aligned (c : Dev nD) : (dats m 0 c).arrAt 3 cfg0.N
    = alignedG (m ((c : Thread nD τ).loc main_arg0)) (m ((c : Thread nD τ).loc main_arg1)) (m ((c : Thread nD τ).loc main_arg2)) :=
  (dats m 0 c).arrAt_eq_of_cover 3 _ (fun t _ => flushed_aligned m c t) cover_aligned

/-- The kernel's run: both result arrays end at their specification, the arguments unchanged. -/
theorem run : θ_run defs (onTc (τ := τ) (main (F := Ideal))) ⟨m, fun _ => 0, ρ⟩ fun r => ∀ c : Dev nD,
      r.2.mem ((c : Thread nD τ).loc main_v2_0)
        = alignedG (m ((c : Thread nD τ).loc main_arg0)) (m ((c : Thread nD τ).loc main_arg1)) (m ((c : Thread nD τ).loc main_arg2))
      ∧ r.2.mem ((c : Thread nD τ).loc main_v2_1)
        = pathG (m ((c : Thread nD τ).loc main_arg0)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_aligned m c), (h c).2.1.trans (final_path m c), (h c).2.2⟩)
    (Value.run_blocks m ρ)

end Cert.KernelIdeal.Blocks

end
-- ==== Proof.FiniteInputs.lean ====
/-
  THE INPUTS ARE REAL NUMBERS. At the ideal reading a float is an extended real. The precondition says, of each of
  the three input arrays, that every entry x satisfies |x| < +∞, where |x| is max x (-x), and joins the three statements
  by "and". An extended real x with max x (-x) < ⊤ is neither ⊤ (then max x (-x) = ⊤) nor ⊥ (then -x = ⊤, so again
  max x (-x) = ⊤); so it is the image of a real number. Hence each input array is the entrywise image of an array of
  reals: `real_of_pre` says so for the first and the third array as functions, `real_of_pre_all` for all three, entry by entry.
-/
import proofs.«180038_j11888469475489_2_alg».proof.Pre_finite_inputs
import proofs.«180038_j11888469475489_2_alg».proof.Proof.Gen.Pre_finite_inputs
import Idealize.ShloMosaic.Lib.ReduceAll
import Idealize.ShloMosaic.Lib.ValueIdx
import Idealize.ShloMosaic.PureOps.Ideal.Laws

noncomputable section

namespace Cert.Proof.FiniteInputs

open Idealize.ShloMosaic Idealize.ShloMosaic.ValueIdx
open Cert.Pre_finite_inputs

/-- The scalar shape has one index. -/
instance : Subsingleton S_.Idx := ⟨fun a b => funext fun d => d.elim0⟩

/-- An extended real whose absolute value max x (-x) is below ⊤ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- A one-bit word made from a truth value is 1 exactly when the truth value is true. -/
theorem ofBool_eq_one (b : Bool) : BitVec.ofBool b = 1#1 ↔ b = true := by cases b <;> decide

/-- The single-precision pattern of +∞ denotes ⊤. -/
theorem top_bits : Ideal.ofBits .f32 0x7F800000#32 = (⊤ : EReal) := by simp [Ideal.ofBits, Ideal.ieee]

/-- The element fact: |x| < +∞, as the comparison's one-bit result being 1, makes x a real number. -/
theorem real_of_cmp (x : EReal) (h : Ideal.cmp .olt (max x (-x)) (Ideal.ofBits .f32 0x7F800000#32) = 1#1) :
    ∃ r : ℝ, x = (r : EReal) := by
  rw [top_bits] at h
  change BitVec.ofBool (decide (max x (-x) < ⊤)) = 1#1 at h
  rw [ofBool_eq_one] at h
  exact real_of_abs_lt_top x (of_decide_eq_true h)

/-- One conjunct of the precondition: "all entries have |x| < +∞" over an array of any shape gives a real at every index. -/
theorem all_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
        (cmpf .olt (Host.absf x) (broadcastInDim s ![] hb (constant S_ .f32 0x7F800000#32)))
        (constantI S_ 1 1#1) hr hu ix0 = 1#1)
    (i : s.Idx) : ∃ r : ℝ, x i = (r : EReal) := by
  have hi := Host.reduce_andi_all _ _ hr hu ix0 e i
  exact real_of_cmp (x i) hi

/-- The precondition decoded, entry by entry, for all three arrays. -/
theorem real_of_pre_all (x0 : FVec Ideal S16x2048x1 .f32) (x1 : FVec Ideal S16x2048x64 .f32) (x2 : FVec Ideal S1x2048x1 .f32)
    (h : Cert.Pre_finite_inputs.fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have e := congrFun h ValueIdx.ix0
  dsimp only [Cert.Pre_finite_inputs.fn] at e
  change IntOp.andi (IntOp.andi _ _) _ = 1#1 at e
  rw [IntOp.andi_eq_one, IntOp.andi_eq_one] at e
  obtain ⟨⟨e0, e1⟩, e2⟩ := e
  exact ⟨all_real x0 _ _ _ e0, all_real x1 _ _ _ e1, all_real x2 _ _ _ e2⟩

/-- The precondition decoded: the first and the third input array are entrywise images of arrays of real numbers. -/
theorem real_of_pre (x0 : FVec Ideal S16x2048x1 .f32) (x1 : FVec Ideal S16x2048x64 .f32) (x2 : FVec Ideal S1x2048x1 .f32)
    (h : Cert.Pre_finite_inputs.fn (F := Ideal) x0 x1 x2 = fun _ => 1#1) :
    (∃ σ : S16x2048x1.Idx → ℝ, x0 = fun i => ((σ i : ℝ) : EReal))
      ∧ (∃ θ : S1x2048x1.Idx → ℝ, x2 = fun i => ((θ i : ℝ) : EReal)) := by
  obtain ⟨h0, -, h2⟩ := real_of_pre_all x0 x1 x2 h
  choose σ hσ using h0
  choose θ hθ using h2
  exact ⟨⟨σ, funext hσ⟩, ⟨θ, funext hθ⟩⟩

end Cert.Proof.FiniteInputs

end
-- ==== Proof.RefValue.lean ====
/-
  THE REFERENCE'S TWO RESULTS ARE THE SPECIFICATION'S, AT REAL INPUTS.

  The reference computes, for batch b, query row r and key j, with a = score (b, r, 0) and t k = template (0, k, 0):
  the distance d k = max (a - t k) (-(a - t k)); the row's largest distance M (a maximum taken from -∞ over the 2048 keys);
  the shifted value x k = -d k - M; the row's largest shifted value, joined once more with -∞; the exponential
  e k = exp (x k - that maximum); and the quotient e j / (0 + ∑ k, e k). Read index by index this is exactly the
  shifted softmax form of the soft alignment weight (`v20_at`, for arbitrary extended-real arrays). When the score and the
  template are real that form and the specification's factored form are the same real number, so the weights agree
  (`path_eq`); the aligned features are the sums over the keys of weight times feature on both sides, so they agree
  term by term (`aligned_eq`, the feature array arbitrary).
-/
import proofs.«180038_j11888469475489_2_alg».proof.Proof.Gen.ReferenceIdeal.Read
import proofs.«180038_j11888469475489_2_alg».proof.Proof.Spec
import Idealize.ShloMosaic.PureOps.Reduce
import Idealize.ShloMosaic.PureOps.Ideal.Laws
import Idealize.ShloMosaic.Lib.ValueIdx

set_option maxRecDepth 16384

noncomputable section

open scoped BigOperators

namespace Cert.ReferenceIdeal.RefValue

open Cert.ReferenceIdeal Cert.ReferenceIdeal.Gen Cert.ReferenceIdeal.Read
open Idealize.ShloMosaic Idealize.ShloMosaic.ValueIdx
open Cert.LibSoftRow Cert.Spec

/-! ## The indices the layout operations read, at literal coordinates -/

theorem idx1_at (b : Fin 16) (r j : Fin 2048) : idx_main_v1 (ix3 b r j) = ix3 b r (0 : Fin 1) :=
  funext fun a => Fin.ext (by match a with | ⟨0, _⟩ => rfl | ⟨1, _⟩ => rfl | ⟨2, _⟩ => rfl)
theorem idx8_at (b : Fin 16) (r j : Fin 2048) : idx_main_v8 (ix3 b r j) = ix3 b r (0 : Fin 1) :=
  funext fun a => Fin.ext (by match a with | ⟨0, _⟩ => rfl | ⟨1, _⟩ => rfl | ⟨2, _⟩ => rfl)
theorem idx14_at (b : Fin 16) (r j : Fin 2048) : idx_main_v14 (ix3 b r j) = ix3 b r (0 : Fin 1) :=
  funext fun a => Fin.ext (by match a with | ⟨0, _⟩ => rfl | ⟨1, _⟩ => rfl | ⟨2, _⟩ => rfl)
theorem idx19_at (b : Fin 16) (r j : Fin 2048) : idx_main_v19 (ix3 b r j) = ix3 b r (0 : Fin 1) :=
  funext fun a => Fin.ext (by match a with | ⟨0, _⟩ => rfl | ⟨1, _⟩ => rfl | ⟨2, _⟩ => rfl)

theorem idx7_at (b : Fin 16) (r : Fin 2048) (u : Fin 1) : idx_main_v7 (ix3 b r u) = ix2 b r :=
  funext fun a => Fin.ext (by match a with | ⟨0, _⟩ => rfl | ⟨1, _⟩ => rfl)
theorem idx13_at (b : Fin 16) (r : Fin 2048) (u : Fin 1) : idx_main_v13 (ix3 b r u) = ix2 b r :=
  funext fun a => Fin.ext (by match a with | ⟨0, _⟩ => rfl | ⟨1, _⟩ => rfl)
theorem idx18_at (b : Fin 16) (r : Fin 2048) (u : Fin 1) : idx_main_v18 (ix3 b r u) = ix2 b r :=
  funext fun a => Fin.ext (by match a with | ⟨0, _⟩ => rfl | ⟨1, _⟩ => rfl)

/-- The template entry the subtraction reads at (b, r, j): number j of the row-major order of both layouts. -/
theorem idx02_at (b : Fin 16) (r j : Fin 2048) : idx_main_v0 (idx_main_v2 (ix3 b r j)) = ix3 (0 : Fin 1) j (0 : Fin 1) :=
  funext fun a => Fin.ext (by
    match a with
    | ⟨0, _⟩ => rfl
    | ⟨1, _⟩ =>
      show ((0 * 1 + 0) * 2048 + j.val) / 1 % 2048 = j.val
      have := j.isLt
      omega
    | ⟨2, _⟩ => rfl)

theorem idx17_at (b : Fin 16) (r k : Fin 2048) : idx_main_v17 (ix2 b r) k = ix3 b r k :=
  funext fun a => Fin.ext (by match a with | ⟨0, _⟩ => rfl | ⟨1, _⟩ => rfl | ⟨2, _⟩ => rfl)
theorem lidx21_at (b : Fin 16) (r : Fin 2048) (f : Fin 64) (k : Fin 2048) : lidx_main_v21 (ix3 b r f) k = ix3 b r k :=
  funext fun a => Fin.ext (by match a with | ⟨0, _⟩ => rfl | ⟨1, _⟩ => rfl | ⟨2, _⟩ => rfl)
theorem ridx21_at (b : Fin 16) (r : Fin 2048) (f : Fin 64) (k : Fin 2048) : ridx_main_v21 (ix3 b r f) k = ix3 b k f :=
  funext fun a => Fin.ext (by match a with | ⟨0, _⟩ => rfl | ⟨1, _⟩ => rfl | ⟨2, _⟩ => rfl)

/-- Reducing the last axis: the index over row (b, r) with key k put back is (b, r, k). -/
theorem lift_at (h : S16x2048x2048.Reduces [2] S16x2048) (b : Fin 16) (r : Fin 2048) (k : Fin (S16x2048x2048.size 2)) :
    h.lift (ix2 b r) k = ix3 b r (⟨k.val, k.isLt⟩ : Fin 2048) := by
  funext c; apply Fin.ext
  fin_cases c <;> rfl

/-! ## The constants -/

theorem bot_bits : Ideal.ofBits .f32 0xFF800000#32 = (⊥ : EReal) := by simp [Ideal.ofBits, Ideal.ieee]

/-- A maximum over the last axis, taken from -∞, read at row (b, r): the maximum over the 2048 keys. -/
theorem rowMax (y : S16x2048x2048.Idx → Ideal .f32) (init : S_.Idx → Ideal .f32) (hinit : init (Shape.Idx.first h_S_) = (⊥ : EReal))
    (b : Fin 16) (r : Fin 2048) :
    Host.reduce (FloatOps.maximumf (F := Ideal) (φ := .f32)) y init reducesTo_S16x2048x2048_S16x2048_d2 h_S_ (ix2 b r)
      = (Finset.univ : Finset (Fin 2048)).fold max (⊥ : EReal) (fun k => y (ix3 b r k)) := by
  rw [Host.reduce_eq_fold_single (FloatOps.maximumf (F := Ideal) (φ := .f32)) y init reducesTo_S16x2048x2048_S16x2048_d2
    (by decide : S16x2048x2048.Reduces [2] S16x2048) h_S_ (ix2 b r), hinit]
  exact Finset.fold_congr (fun k _ => congrArg y (lift_at _ b r k))

/-! ## The reference, stage by stage, at (b, r, j) -/

variable (x0 : (⟨S16x2048x1, .f32⟩ : BufTy).Contents (Elt Ideal)) (x2 : (⟨S1x2048x1, .f32⟩ : BufTy).Contents (Elt Ideal))

theorem v4_at (b : Fin 16) (r j : Fin 2048) :
    val_main_v4 (F := Ideal) x0 x2 (ix3 b r j) = refDist (x0 (ix3 b r (0 : Fin 1))) (keys x2 j) := by
  rw [val_main_v4_apply, val_main_v3_apply, val_main_v1_apply, val_main_v2_apply, val_main_v0_apply, idx1_at, idx02_at]
  rfl

theorem v6_at (b : Fin 16) (r : Fin 2048) :
    val_main_v6 (F := Ideal) x0 x2 (ix2 b r)
      = (Finset.univ : Finset (Fin 2048)).fold max (⊥ : EReal) (fun k => refDist (x0 (ix3 b r (0 : Fin 1))) (keys x2 k)) := by
  unfold val_main_v6
  rw [rowMax _ _ (by rw [val_main_cst_apply, Ideal.ofBits_def, bot_bits]) b r]
  exact Finset.fold_congr (fun k _ => v4_at x0 x2 b r k)

theorem v9_at (b : Fin 16) (r j : Fin 2048) :
    val_main_v9 (F := Ideal) x0 x2 (ix3 b r j) = refShift (x0 (ix3 b r (0 : Fin 1))) (keys x2) j := by
  rw [val_main_v9_apply, val_main_v5_apply, val_main_v8_apply, val_main_v7_apply, idx8_at, idx7_at, v4_at, v6_at]
  rfl

theorem v10_at (b : Fin 16) (r : Fin 2048) :
    val_main_v10 (F := Ideal) x0 x2 (ix2 b r)
      = (Finset.univ : Finset (Fin 2048)).fold max (⊥ : EReal) (fun k => refShift (x0 (ix3 b r (0 : Fin 1))) (keys x2) k) := by
  unfold val_main_v10
  rw [rowMax _ _ (by rw [val_main_cst_0_apply, Ideal.ofBits_def, bot_bits]) b r]
  exact Finset.fold_congr (fun k _ => v9_at x0 x2 b r k)

theorem v12_at (b : Fin 16) (r : Fin 2048) :
    val_main_v12 (F := Ideal) x0 x2 (ix2 b r)
      = max (⊥ : EReal) ((Finset.univ : Finset (Fin 2048)).fold max (⊥ : EReal) (fun k => refShift (x0 (ix3 b r (0 : Fin 1))) (keys x2) k)) := by
  rw [val_main_v12_apply, val_main_v11_apply, val_main_cst_1_apply, Ideal.ofBits_def, bot_bits, v10_at]
  rfl

theorem v16_at (b : Fin 16) (r j : Fin 2048) :
    val_main_v16 (F := Ideal) x0 x2 (ix3 b r j) = refExp (x0 (ix3 b r (0 : Fin 1))) (keys x2) j := by
  rw [val_main_v16_apply, val_main_v15_apply, val_main_v14_apply, val_main_v13_apply, idx14_at, idx13_at, v9_at, v12_at]
  rfl

theorem v17_at (b : Fin 16) (r : Fin 2048) :
    val_main_v17 (F := Ideal) x0 x2 (ix2 b r) = 0 + ∑ k : Fin 2048, refExp (x0 (ix3 b r (0 : Fin 1))) (keys x2) k := by
  rw [val_main_v17_apply, val_main_cst_2_apply, Ideal.ofBits_def, Ideal.ofBits_zero_f32]
  refine congrArg (0 + ·) (Finset.sum_congr rfl fun k _ => ?_)
  rw [idx17_at, v16_at]

/-- The reference's weight at (b, r, j), for arbitrary extended-real arrays: the shifted softmax form. -/
theorem v20_at (b : Fin 16) (r j : Fin 2048) :
    val_main_v20 (F := Ideal) x0 x2 (ix3 b r j) = refRow (x0 (ix3 b r (0 : Fin 1))) (keys x2) j := by
  rw [val_main_v20_apply, val_main_v19_apply, val_main_v18_apply, idx19_at, idx18_at, v16_at, v17_at]
  rfl

/-! ## At real inputs -/

/-- The reference's weights are the specification's when the score and the template are real. -/
theorem path_eq (σ : S16x2048x1.Idx → ℝ) (θ : S1x2048x1.Idx → ℝ) :
    Cert.ReferenceIdeal.Read.val_main_v20 (F := Ideal) (fun i => ((σ i : ℝ) : EReal)) (fun i => ((θ i : ℝ) : EReal))
      = Cert.Spec.pathG (fun i => ((σ i : ℝ) : EReal)) (fun i => ((θ i : ℝ) : EReal)) := by
  funext i
  obtain ⟨b, r, j, rfl⟩ : ∃ (b : Fin 16) (r : Fin 2048) (j : Fin 2048), i = ix3 b r j := ⟨i 0, i 1, i 2, eq_ix3 i⟩
  rw [v20_at, pathG_apply]
  exact (refRow_coe (σ (ix3 b r (0 : Fin 1))) (fun k => θ (ix3 (0 : Fin 1) k (0 : Fin 1))) j).trans
    (kerRow_coe (σ (ix3 b r (0 : Fin 1))) (fun k => θ (ix3 (0 : Fin 1) k (0 : Fin 1))) j).symm

/-- The reference's aligned features are the specification's when the score and the template are real. -/
theorem aligned_eq (σ : S16x2048x1.Idx → ℝ) (x1 : FVec Ideal S16x2048x64 .f32) (θ : S1x2048x1.Idx → ℝ) :
    Cert.ReferenceIdeal.Read.val_main_v21 (F := Ideal) (fun i => ((σ i : ℝ) : EReal)) x1 (fun i => ((θ i : ℝ) : EReal))
      = Cert.Spec.alignedG (fun i => ((σ i : ℝ) : EReal)) x1 (fun i => ((θ i : ℝ) : EReal)) := by
  funext i
  obtain ⟨b, r, f, rfl⟩ : ∃ (b : Fin 16) (r : Fin 2048) (f : Fin 64), i = ix3 b r f := ⟨i 0, i 1, i 2, eq_ix3 i⟩
  rw [val_main_v21_apply, alignedG_apply]
  refine Finset.sum_congr rfl fun k _ => ?_
  rw [lidx21_at, ridx21_at, path_eq σ θ, pathG_apply]

end Cert.ReferenceIdeal.RefValue

end
-- ==== Proof.Claims.lean ====
/-
  THE FIVE CLAIMS, ASSEMBLED.

  Three claims say that a program runs and leaves its argument arrays as they were: for the kernel and for its ideal
  reading that is the generated frame; for the reference it is the generated run with the two results dropped. The
  ideal reading rewrote no operation, so that claim is the true proposition. The last claim says that at the ideal
  reading the kernel and the reference, started from memories that agree on the three arguments and whose entries
  satisfy the precondition, end with equal results. Both results are given as the specification's two functions of the
  arguments: the aligned features, ∑ k, weight (b, i, k) · feature (b, k, f), and the weights themselves. On the kernel's
  side that is the hypothesis `KernelRun` (the kernel's value run, proved elsewhere). On the reference's side the
  generated run gives each result as the reference's own term of its arguments; those arguments are the kernel's by
  the agreement; the precondition makes the score and the template arrays real (every entry has |x| < +∞); and for real
  score and template the reference's term is the specification's (`ref_values`).
-/
import proofs.«180038_j11888469475489_2_alg».proof.Defs
import proofs.«180038_j11888469475489_2_alg».proof.Proof.Gen.Kernel.Frame
import proofs.«180038_j11888469475489_2_alg».proof.Proof.Gen.KernelIdeal.Frame
import proofs.«180038_j11888469475489_2_alg».proof.Proof.Gen.ReferenceIdeal.Run
import proofs.«180038_j11888469475489_2_alg».proof.Proof.Gen.ReferenceIdeal.Read
import proofs.«180038_j11888469475489_2_alg».proof.Proof.Gen.Pre_finite_inputs
import proofs.«180038_j11888469475489_2_alg».proof.Proof.FiniteInputs
import proofs.«180038_j11888469475489_2_alg».proof.Proof.RefValue
import proofs.«180038_j11888469475489_2_alg».proof.Proof.Spec

set_option maxRecDepth 16384

noncomputable section

namespace Cert.Proof.Claims

open Idealize.ShloMosaic Idealize.ShloMosaic.TcCoe Idealize.SL.Sem

/-- The kernel's value run at the ideal reading: from any memory, every weakly fair execution terminates with the two
    result arrays at the specification's aligned features and weights of the launch contents of the three arguments,
    and the arguments unchanged. -/
abbrev KernelRun : Prop :=
  ∀ (m : (ℓ : Loc Cert.KernelIdeal.nD Cert.KernelIdeal.τ Cert.KernelIdeal.sig) → Buf (Elt Ideal) ℓ) (ρ : Dev Cert.KernelIdeal.nD → PrngReg),
    θ_run (Cert.KernelIdeal.defs (F := Ideal)) (onTc (τ := Cert.KernelIdeal.τ) (Cert.KernelIdeal.main (F := Ideal))) ⟨m, fun _ => 0, ρ⟩ fun r => ∀ c : Dev Cert.KernelIdeal.nD,
      r.2.mem ((c.tc : Thread Cert.KernelIdeal.nD Cert.KernelIdeal.τ).loc Cert.KernelIdeal.main_v2_0)
          = Cert.Spec.alignedG (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      ∧ r.2.mem ((c.tc : Thread Cert.KernelIdeal.nD Cert.KernelIdeal.τ).loc Cert.KernelIdeal.main_v2_1)
          = Cert.Spec.pathG (m ((c.tc : Thread Cert.KernelIdeal.nD Cert.KernelIdeal.τ).loc Cert.KernelIdeal.main_arg0)) (m ((c.tc : Thread Cert.KernelIdeal.nD Cert.KernelIdeal.τ).loc Cert.KernelIdeal.main_arg2))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)

/-! ## The frames and the ledger -/

theorem frame_kernel : Cert.frame_Kernel := fun m ρ _ => Cert.Kernel.Gen.frame m ρ
theorem frame_kernelIdeal : Cert.frame_KernelIdeal := fun m ρ _ => Cert.KernelIdeal.Gen.frame m ρ
/-- The reference's generated run states its two results and then the three arguments: the frame is its last three conjuncts. -/
theorem frame_reference : Cert.frame_ReferenceIdeal := fun m ρ _ =>
  (θ_run Cert.ReferenceIdeal.defs _ _).mono (fun _ h c => (h c).2.2) (Cert.ReferenceIdeal.Value.run (F := Ideal) m ρ)
/-- The ideal reading rewrote no operation. -/
theorem preserves : Cert.preserves_Kernel_KernelIdeal := trivial

/-! ## The reference's results at arrays that satisfy the precondition -/

/-- Over arbitrary arrays of which the precondition holds: the score and the template are then real, and at real score
    and template the reference's two terms are the specification's aligned features and weights. -/
theorem ref_values (x0 : FVec Ideal Cert.Pre_finite_inputs.S16x2048x1 .f32) (x1 : FVec Ideal Cert.Pre_finite_inputs.S16x2048x64 .f32)
    (x2 : FVec Ideal Cert.Pre_finite_inputs.S1x2048x1 .f32)
    (h : Cert.Pre_finite_inputs.fn (F := Ideal) x0 x1 x2 = fun _ => 1#1) :
    Cert.ReferenceIdeal.Read.val_main_v21 (F := Ideal) x0 x1 x2 = Cert.Spec.alignedG x0 x1 x2
      ∧ Cert.ReferenceIdeal.Read.val_main_v20 (F := Ideal) x0 x2 = Cert.Spec.pathG x0 x2 := by
  obtain ⟨⟨σ, rfl⟩, ⟨θ, rfl⟩⟩ := Cert.Proof.FiniteInputs.real_of_pre x0 x1 x2 h
  exact ⟨Cert.ReferenceIdeal.RefValue.aligned_eq σ x1 θ, Cert.ReferenceIdeal.RefValue.path_eq σ θ⟩

/-! ## The two programs end with equal results -/

/-- Both programs end at the specification's aligned features and weights of the kernel's arguments. -/
theorem algebraic (hK : KernelRun) : Cert.algebraic_KernelIdeal_ReferenceIdeal := by
  intro m ρ m' ρ' hpre hagree
  refine ⟨fun c => Cert.Spec.alignedG (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => Cert.Spec.pathG (m ((c.tc : Thread Cert.KernelIdeal.nD Cert.KernelIdeal.τ).loc Cert.KernelIdeal.main_arg0)) (m ((c.tc : Thread Cert.KernelIdeal.nD Cert.KernelIdeal.τ).loc Cert.KernelIdeal.main_arg2)),
    hK m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v21_eq, (hagree c).1, (hagree c).2.1, (hagree c).2.2]
    exact (ref_values _ _ _ (hpre c)).1
  · rw [Cert.ReferenceIdeal.Read.val_main_v20_eq, (hagree c).1, (hagree c).2.2]
    exact (ref_values _ _ _ (hpre c)).2

/-- The certificate's claim, from the kernel's value run. -/
theorem claim_of (hK : KernelRun) : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic hK⟩

end Cert.Proof.Claims

end
-- ==== Proof.lean ====
/-
  The certificate's claim: the kernel and the reference compute the same two arrays on the extended reals when the
  inputs are finite.

  Both programs compute, for batch `b` and query row `i`, the soft alignment weights
  `w j = e^(-|s - t j|) / ∑ k, e^(-|s - t k|)` of the query `s = score (b, i, 0)` against the keys `t k = template (0, k, 0)`,
  and the aligned features `∑ k, w k · feature (b, k, f)`.

  The kernel writes `e^(-|s - t|)` as `min (e^s · e^(0 - t)) (e^(0 - s) · e^t)`, tile by tile over a 16 × 4 grid; the
  reference subtracts the row's maximum twice before the exponential (`e^(-d - M - M')`), which multiplies numerator and
  denominator by the same positive real. For real inputs the two quotients are one real number (`LibSoftRow`); the
  precondition makes the inputs real (`FiniteInputs`). The kernel's arrays are read off its blocks (`KernelPayload`,
  `KernelBlocks`), the reference's off its operations one at a time (`RefValue`); `Claims` joins the two runs.
  The three frame conjuncts are the programs' runs with the results dropped; the idealization rewrote nothing, so
  its conjunct is trivial.
-/
import proofs.«180038_j11888469475489_2_alg».proof.Defs
import proofs.«180038_j11888469475489_2_alg».proof.Proof.Gen.Kernel
import proofs.«180038_j11888469475489_2_alg».proof.Proof.Gen.Kernel.Skeleton
import proofs.«180038_j11888469475489_2_alg».proof.Proof.Gen.Kernel.Launch
import proofs.«180038_j11888469475489_2_alg».proof.Proof.Gen.Kernel.Points
import proofs.«180038_j11888469475489_2_alg».proof.Proof.Gen.Kernel.Frame
import proofs.«180038_j11888469475489_2_alg».proof.Proof.Gen.KernelIdeal
import proofs.«180038_j11888469475489_2_alg».proof.Proof.Gen.KernelIdeal.Skeleton
import proofs.«180038_j11888469475489_2_alg».proof.Proof.Gen.KernelIdeal.Launch
import proofs.«180038_j11888469475489_2_alg».proof.Proof.Gen.KernelIdeal.Points
import proofs.«180038_j11888469475489_2_alg».proof.Proof.Gen.KernelIdeal.Frame
import proofs.«180038_j11888469475489_2_alg».proof.Proof.Gen.ReferenceIdeal
import proofs.«180038_j11888469475489_2_alg».proof.Proof.Gen.Pre_finite_inputs
import proofs.«180038_j11888469475489_2_alg».proof.Proof.Gen.KernelIdeal.Value
import proofs.«180038_j11888469475489_2_alg».proof.Proof.Gen.ReferenceIdeal.Run
import proofs.«180038_j11888469475489_2_alg».proof.Proof.Gen.ReferenceIdeal.Read
import proofs.«180038_j11888469475489_2_alg».proof.Proof.KernelBlocks
import proofs.«180038_j11888469475489_2_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_kernel, Claims.frame_kernelIdeal, Claims.frame_reference, Claims.preserves,
  Claims.algebraic fun m ρ => Cert.KernelIdeal.Blocks.run m ρ⟩

end Cert.Proof

end
